-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 82
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128x128, .f32⟩
  | .hbm, ⟨24, _⟩ => ⟨S128x128, .f32⟩
  | .hbm, ⟨25, _⟩ => ⟨S1x128, .f32⟩
  | .hbm, ⟨26, _⟩ => ⟨S128, .f32⟩
  | .hbm, ⟨27, _⟩ => ⟨S1x128x128, .f32⟩
  | .hbm, ⟨28, _⟩ => ⟨S128x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S128, .f32⟩
  | .hbm, ⟨51, _⟩ => ⟨S1x128x128, .f32⟩
  | .hbm, ⟨52, _⟩ => ⟨S128x128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S128, .f32⟩
  | .hbm, ⟨75, _⟩ => ⟨S1x128x128, .f32⟩
  | .hbm, ⟨76, _⟩ => ⟨S128x128, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S1x128, .f32⟩
  | .hbm, ⟨81, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_1 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_4 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S1x128x128, .f32⟩
  | .hbm, ⟨25, _⟩ => ⟨S128x128, .f32⟩
  | .hbm, ⟨26, _⟩ => ⟨S100000x128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S1x128x128, .f32⟩
  | .hbm, ⟨36, _⟩ => ⟨S128x128, .f32⟩
  | .hbm, ⟨37, _⟩ => ⟨S100000x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S1x128x128, .f32⟩
  | .hbm, ⟨58, _⟩ => ⟨S128x128, .f32⟩
  | .hbm, ⟨59, _⟩ => ⟨S100000x128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S1x128x128, .f32⟩
  | .hbm, ⟨69, _⟩ => ⟨S128x128, .f32⟩
  | .hbm, ⟨70, _⟩ => ⟨S100000x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .f32⟩
  | .hbm, ⟨90, _⟩ => ⟨S1x128x128, .f32⟩
  | .hbm, ⟨91, _⟩ => ⟨S128x128, .f32⟩
  | .hbm, ⟨92, _⟩ => ⟨S100000x128, .f32⟩
  | .hbm, ⟨93, _⟩ => ⟨S1x128, .f32⟩
  | .hbm, ⟨94, _⟩ => ⟨S128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S1x128x128, .f32⟩
  | .hbm, ⟨102, _⟩ => ⟨S128x128, .f32⟩
  | .hbm, ⟨103, _⟩ => ⟨S100000x128, .f32⟩
  | .hbm, ⟨104, _⟩ => ⟨S1x128, .f32⟩
  | .hbm, ⟨105, _⟩ => ⟨S128, .f32⟩
  | .hbm, ⟨106, _⟩ => ⟨S1x128, .f32⟩
  | .hbm, ⟨107, _⟩ => ⟨S100000x128, .f32⟩
  | .hbm, ⟨108, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_1 : Ref sig .tc := ⟨.hbm, 43, rfl⟩
abbrev main_v32 : Ref sig .tc := ⟨.hbm, 44, rfl⟩
abbrev main_v33 : Ref sig .tc := ⟨.hbm, 45, rfl⟩
abbrev main_c_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call1_cst : Ref sig .tc := ⟨.hbm, 65, rfl⟩
abbrev main_call1_v0 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_4 : Ref sig .tc := ⟨.hbm, 76, rfl⟩
abbrev main_v60 : Ref sig .tc := ⟨.hbm, 77, rfl⟩
abbrev main_v61 : Ref sig .tc := ⟨.hbm, 78, rfl⟩
abbrev main_c_5 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_6 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_call2_cst : Ref sig .tc := ⟨.hbm, 98, rfl⟩
abbrev main_call2_v0 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized program's run with its result array NAMED.

  @main is six segments: a stretch of host operations, then a launch of the perceptron kernel, three times over. The
  buffer contents at each boundary are a fold through the program — `W1` after the first stretch, `W2` after the first
  launch (that launch's arrays at what its write-backs leave, every other buffer as entered), and so on to `W6` at
  the return. The frame theorem of this program reads only the six ARGUMENT buffers off `W6`. Here the same run
  is read at one more buffer, the result `main_v66`: every weakly fair execution terminates, nothing faulting, with
  the result buffer at `W6`'s contents there and the arguments as launched. What `W6` holds at the result buffer is
  a matter of values, and is worked out elsewhere.
-/
import proofs.«165193_j83038897701199_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents `W6`, and each argument buffer as launched. The launch over the six segments; the last thread state
    holds every unscoped buffer at `W6`, which is read against the final state; the result buffer is one of them. -/
theorem run : θ_run defs (onTc (τ := τ) (main (F := F))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Spec.lean ====
/-
  One round's dense part at the extended reals, entry by entry.

  A round of the network takes the node features `x` and the neighbour sums `a` (both [N, 128]) and computes, for
  node `r` and output feature `j`,

      out (r, j) = (∑ k, max ((∑ k', (x (r, k') + a (r, k')) · w1 (k', k)) + b1 k) 0 · w2 (k, j)) + b2 j.

  `mlpRow` is the right-hand side as a function of node `r`'s input row `z = x (r, ·) + a (r, ·)`. An output row depends
  on its own input row only, so the formula reads the same on a block of rows as on the whole array:

  * `kernel_rows`: on ANY number of rows, the vector unit's computation — the sum rounded to a narrower format (the
    identity on the extended reals), a matrix product into a zero accumulator, a [1, 128] bias row spread down the
    rows, the maximum with zero, and the same again — read at (r, j) is `mlpRow` of row `r`;
  * `reference_rows`: the host's computation — `dot_general`, a full-size bias array added, the maximum with a
    full-size zero array, and the same again — read at (i, j) is `mlpRow` of row `i`, the biases read at row `i`.

  No law of arithmetic beyond reading each operation at an index is used: both sides are the SAME nested sum, so
  nothing here asks the entries to be finite.
-/
import Idealize.ShloMosaic.Lib.ValueIdx
import Idealize.ShloMosaic.Lib.Pipeline.Value
import Idealize.ShloMosaic.Lib.ValueLayout
import Idealize.ShloMosaic.PureOps.Ideal.Laws
import proofs.«165193_j83038897701199_1_alg».proof.Proof.LibDense

noncomputable section

namespace Cert.Gin

open Idealize.ShloMosaic Idealize.ShloMosaic.ValueIdx

/-- Entry `j` of one node's output row, from the node's input row `z` (its features plus its neighbours' sum), the two
    weight matrices and the two bias vectors. -/
def mlpRow (z : Fin 128 → EReal) (w1 : (⟨2, ![128, 128]⟩ : Shape).Idx → EReal) (b1 : Fin 128 → EReal)
    (w2 : (⟨2, ![128, 128]⟩ : Shape).Idx → EReal) (b2 : Fin 128 → EReal) (j : Fin 128) : EReal :=
  (∑ k : Fin 128, max ((∑ k' : Fin 128, z k' * w1 (ix2 k' k)) + b1 k) (Ideal.ofBits .f32 0x00000000#32) * w2 (ix2 k j)) + b2 j

/-- A round's output as ONE function of whole arrays: features `X` and neighbour sums `A` of `N` nodes, the weights, and
    the biases as [1, 128] rows. -/
def layerOut {N : Nat} (X A : (⟨2, ![N, 128]⟩ : Shape).Idx → EReal) (W1 : (⟨2, ![128, 128]⟩ : Shape).Idx → EReal)
    (B1 : (⟨2, ![1, 128]⟩ : Shape).Idx → EReal) (W2 : (⟨2, ![128, 128]⟩ : Shape).Idx → EReal)
    (B2 : (⟨2, ![1, 128]⟩ : Shape).Idx → EReal) : (⟨2, ![N, 128]⟩ : Shape).Idx → EReal :=
  fun i => mlpRow (fun k => X (ix2 (⟨(i 0).val, idx2_lt0 i⟩ : Fin N) k) + A (ix2 (⟨(i 0).val, idx2_lt0 i⟩ : Fin N) k)) W1
    (fun k => B1 (ix2 (0 : Fin 1) k)) W2 (fun k => B2 (ix2 (0 : Fin 1) k)) (⟨(i 1).val, idx2_lt1 i⟩ : Fin 128)

/-- `layerOut` at node `r`, feature `j`. -/
theorem layerOut_apply {N : Nat} (X A : (⟨2, ![N, 128]⟩ : Shape).Idx → EReal) (W1 : (⟨2, ![128, 128]⟩ : Shape).Idx → EReal)
    (B1 : (⟨2, ![1, 128]⟩ : Shape).Idx → EReal) (W2 : (⟨2, ![128, 128]⟩ : Shape).Idx → EReal)
    (B2 : (⟨2, ![1, 128]⟩ : Shape).Idx → EReal) (r : Fin N) (j : Fin 128) :
    layerOut X A W1 B1 W2 B2 (ix2 r j)
      = mlpRow (fun k => X (ix2 r k) + A (ix2 r k)) W1 (fun k => B1 (ix2 (0 : Fin 1) k)) W2 (fun k => B2 (ix2 (0 : Fin 1) k)) j := rfl

/-- The vector unit's two dense layers on `n` rows, read at (r, j). -/
theorem kernel_rows {n : Nat}
    (wf : DotDims.WF (⟨2, ![n, 128]⟩ : Shape) ⟨2, ![128, 128]⟩ ⟨2, ![n, 128]⟩ [1] [0] [0] [1] [] [])
    (hbc : (⟨2, ![1, 128]⟩ : Shape).Broadcasts ⟨2, ![n, 128]⟩) (hlt : FTy.bf16.bits < FTy.f32.bits)
    (x a : FVec Ideal (⟨2, ![n, 128]⟩ : Shape) .f32) (w1 : FVec Ideal (⟨2, ![128, 128]⟩ : Shape) .f32)
    (b1 : FVec Ideal (⟨2, ![1, 128]⟩ : Shape) .f32) (w2 : FVec Ideal (⟨2, ![128, 128]⟩ : Shape) .f32)
    (b2 : FVec Ideal (⟨2, ![1, 128]⟩ : Shape) .f32) (r : Fin n) (j : Fin 128) :
    addf (matmul (LibDense.plainOf wf) none
          (truncf .bf16
            (maximumf
              (addf (matmul (LibDense.plainOf wf) none (truncf .bf16 (addf x a) hlt) (truncf .bf16 w1 hlt)
                  (constant (F := Ideal) (⟨2, ![n, 128]⟩ : Shape) .f32 0x00000000#32))
                (broadcastTo (⟨2, ![n, 128]⟩ : Shape) b1 hbc))
              (broadcast (⟨2, ![n, 128]⟩ : Shape) (Scalar.ofBits (F := Ideal) .f32 0x00000000#32))) hlt)
          (truncf .bf16 w2 hlt) (constant (F := Ideal) (⟨2, ![n, 128]⟩ : Shape) .f32 0x00000000#32))
        (broadcastTo (⟨2, ![n, 128]⟩ : Shape) b2 hbc) (ix2 r j)
      = mlpRow (fun k => x (ix2 r k) + a (ix2 r k)) w1 (fun k => b1 (ix2 (0 : Fin 1) k)) w2
          (fun k => b2 (ix2 (0 : Fin 1) k)) j := by
  refine (LibDense.dense_apply wf _ _ b2 hbc r j).trans ?_
  unfold mlpRow
  refine congrArg (· + b2 (ix2 (0 : Fin 1) j)) (Finset.sum_congr rfl fun k _ => ?_)
  refine congrArg (· * w2 (ix2 k j)) ?_
  exact congrArg (max · (Ideal.ofBits .f32 0x00000000#32)) (LibDense.dense_apply wf _ _ b1 hbc r k)

/-- The host's two dense layers on `N` rows, read at (i, j): the bias arrays `c1`, `c2` and the zero array `zero` are
    full-size, and are read at row `i`. -/
theorem reference_rows {N : Nat}
    (wf : DotDims.WF (⟨2, ![N, 128]⟩ : Shape) ⟨2, ![128, 128]⟩ ⟨2, ![N, 128]⟩ [1] [0] [0] [1] [] [])
    (z : FVec Ideal (⟨2, ![N, 128]⟩ : Shape) .f32) (w1 w2 : FVec Ideal (⟨2, ![128, 128]⟩ : Shape) .f32)
    (c1 c2 zero : FVec Ideal (⟨2, ![N, 128]⟩ : Shape) .f32)
    (hzero : ∀ i, zero i = Ideal.ofBits .f32 0x00000000#32) (i : Fin N) (j : Fin 128) :
    addf (Host.dotGeneral (LibDense.plainOf wf) none
          (maximumf (addf (Host.dotGeneral (LibDense.plainOf wf) none z w1) c1) zero) w2) c2 (ix2 i j)
      = mlpRow (fun k => z (ix2 i k)) w1 (fun k => c1 (ix2 i k)) w2 (fun k => c2 (ix2 i k)) j := by
  unfold mlpRow
  refine congrArg (· + c2 (ix2 i j)) ?_
  refine (LibDense.dotGeneral_plain wf none _ _ w2 i j).trans (Finset.sum_congr rfl fun k _ => ?_)
  refine congrArg (· * w2 (ix2 k j)) ?_
  show max (Host.dotGeneral (LibDense.plainOf wf) none z w1 (ix2 i k) + c1 (ix2 i k)) (zero (ix2 i k)) = _
  rw [hzero]
  exact congrArg (max · (Ideal.ofBits .f32 0x00000000#32))
    (congrArg (· + c1 (ix2 i k)) (LibDense.dotGeneral_plain wf none _ z w1 i k))

/-! ## A bias vector as a row, and as a full array -/

/-- A [128] vector recast as a [1, 128] row, read at (0, k), is the vector at k. -/
theorem row_of_vec_apply {α : Type} (v : (⟨1, ![128]⟩ : Shape).Idx → α)
    (h : (⟨1, ![128]⟩ : Shape).ShapeCasts ⟨2, ![1, 128]⟩) (k : Fin 128) :
    shapeCast (⟨2, ![1, 128]⟩ : Shape) v h (ix2 (0 : Fin 1) k) = v (ix1 k) := by
  refine shapeCast_apply v h (ix2 (0 : Fin 1) k) (ix1 k) ?_
  rw [Shape.rowMajor_val_one, Shape.rowMajor_val_two]
  show k.val = 0 * 128 + k.val
  omega

/-- A [128] vector spread to a [1, 128] row and then down `N` rows, read at (i, k), is the vector at k. -/
theorem full_of_vec_apply {α : Type} {N : Nat} (v : (⟨1, ![128]⟩ : Shape).Idx → α)
    (d1 : Fin 1 → Fin 2) (hd1 : d1 0 = 1) (h1 : (⟨1, ![128]⟩ : Shape).BroadcastsInDim ⟨2, ![1, 128]⟩ d1)
    (d2 : Fin 2 → Fin 2) (hd2 : d2 0 = 0 ∧ d2 1 = 1) (h2 : (⟨2, ![1, 128]⟩ : Shape).BroadcastsInDim ⟨2, ![N, 128]⟩ d2)
    (i : Fin N) (k : Fin 128) :
    broadcastInDim (⟨2, ![N, 128]⟩ : Shape) d2 h2 (broadcastInDim (⟨2, ![1, 128]⟩ : Shape) d1 h1 v) (ix2 i k) = v (ix1 k) := by
  refine (broadcastInDim_apply d2 h2 _ (ix2 i k) (ix2 (0 : Fin 1) k) fun a => ?_).trans
    (broadcastInDim_apply d1 h1 v (ix2 (0 : Fin 1) k) (ix1 k) fun a => ?_)
  · match a with
    | ⟨0, _⟩ => rfl
    | ⟨1, _⟩ =>
      show k.val = if (128 : Nat) = 1 then 0 else ((ix2 i k) (d2 1)).val
      rw [hd2.2]; rfl
  · match a with
    | ⟨0, _⟩ =>
      show k.val = if (128 : Nat) = 1 then 0 else ((ix2 (0 : Fin 1) k) (d1 0)).val
      rw [hd1]; rfl

end Cert.Gin

end
-- ==== Proof.Region0.lean ====
/-
  What launch 0 of the perceptron kernel leaves in its result array: one function of the arrays it is given.

  The grid has 20 points. Point `t` is handed rows 5000·t … 5000·t + 4999 of the node features and of the
  neighbour sums, and the whole of each weight matrix and bias row; it computes 5000 output rows from them and writes
  them back as rows 5000·t … 5000·t + 4999 of the result. An output row depends on the same row of the two
  moving inputs only, so what point `t` writes is block `t` of ONE whole-array function (`Cert.Gin.layerOut`) of the
  arrays as the launch finds them; the 20 blocks tile the 100000 rows, so the result array ends holding that function.
-/
import proofs.«165193_j83038897701199_1_alg».proof.Proof.Gen.KernelIdeal.Frame
import proofs.«165193_j83038897701199_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at row `r`, column `j` of a block: the round's formula on row `r` of the two moving blocks. -/
theorem pay_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (j : Fin 128) :
    k0_pay1 (F := Ideal) x0 x1 x2 x3 x4 x5 (ix2 r j)
      = Cert.Gin.mlpRow (fun k => x0 (ix2 r k) + x1 (ix2 r k)) x2 (fun k => x3 (ix2 (0 : Fin 1) k)) x4
          (fun k => x5 (ix2 (0 : Fin 1) k)) j := by
  unfold k0_pay1
  simp only [shapeCast_self]
  exact Cert.Gin.kernel_rows _ _ _ x0 x1 x2 x3 x4 x5 r j

/-- The index maps, decided over the grid: the two moving inputs and the output sit at block row `t`, column block 0;
    the weights and biases at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as rows of its array -/

/-- Row `r` of point `t`'s block of the node features is row 5000·t + r of the array. -/
theorem blk0_apply (c : Dev nD) (t : Fin cfg0.N) (r : Fin 5000) (k : Fin 128) (R : Fin 100000)
    (hR : R.val = t.val * 5000 + r.val) :
    (iblk0 V c 0 t : Vec Ideal S5000x128 .f32) (ix2 r k) = (V c main_arg0 : S100000x128.Idx → EReal) (ix2 R k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t 0 * 5000 + 1 * r.val = R.val; rw [e0, hR]; omega
  | ⟨1, _⟩ => show win0_0.index t 1 * 128 + 1 * k.val = k.val; rw [e1]; omega

/-- Row `r` of point `t`'s block of the neighbour sums is row 5000·t + r of the array. -/
theorem blk1_apply (c : Dev nD) (t : Fin cfg0.N) (r : Fin 5000) (k : Fin 128) (R : Fin 100000)
    (hR : R.val = t.val * 5000 + r.val) :
    (iblk0 V c 1 t : Vec Ideal S5000x128 .f32) (ix2 r k) = (V c main_v13 : S100000x128.Idx → EReal) (ix2 R k) := by
  obtain ⟨-, -, e0, e1, -⟩ := idx_facts t
  unfold iblk0
  rw [View.read_apply]
  show V c main_v13 _ = V c main_v13 _
  refine congrArg _ (funext fun a => Fin.ext ?_)
  match a with
  | ⟨0, _⟩ => show win0_1.index t 0 * 5000 + 1 * r.val = R.val; rw [e0, hR]; omega
  | ⟨1, _⟩ => show win0_1.index t 1 * 128 + 1 * k.val = k.val; rw [e1]; omega

/-- The first weight matrix's block is the matrix, at every point. -/
theorem blk2_apply (c : Dev nD) (t : Fin cfg0.N) (p q : Fin 128) :
    (iblk0 V c 2 t : Vec Ideal S128x128 .f32) (ix2 p q) = (V c main_v15 : S128x128.Idx → EReal) (ix2 p q) := by
  obtain ⟨-, -, -, -, e0, e1, -⟩ := idx_facts t
  unfold iblk0
  rw [View.read_apply]
  show V c main_v15 _ = V c main_v15 _
  refine congrArg _ (funext fun a => Fin.ext ?_)
  match a with
  | ⟨0, _⟩ => show win0_2.index t 0 * 128 + 1 * p.val = p.val; rw [e0]; omega
  | ⟨1, _⟩ => show win0_2.index t 1 * 128 + 1 * q.val = q.val; rw [e1]; omega

/-- The first bias row's block is the row, at every point. -/
theorem blk3_apply (c : Dev nD) (t : Fin cfg0.N) (p : Fin 1) (q : Fin 128) :
    (iblk0 V c 3 t : Vec Ideal S1x128 .f32) (ix2 p q) = (V c main_v22 : S1x128.Idx → EReal) (ix2 p q) := by
  obtain ⟨-, -, -, -, -, -, e0, e1, -⟩ := idx_facts t
  unfold iblk0
  rw [View.read_apply]
  show V c main_v22 _ = V c main_v22 _
  refine congrArg _ (funext fun a => Fin.ext ?_)
  match a with
  | ⟨0, _⟩ => show win0_3.index t 0 * 1 + 1 * p.val = p.val; rw [e0]; omega
  | ⟨1, _⟩ => show win0_3.index t 1 * 128 + 1 * q.val = q.val; rw [e1]; omega

/-- The second weight matrix's block is the matrix, at every point. -/
theorem blk4_apply (c : Dev nD) (t : Fin cfg0.N) (p q : Fin 128) :
    (iblk0 V c 4 t : Vec Ideal S128x128 .f32) (ix2 p q) = (V c main_v19 : S128x128.Idx → EReal) (ix2 p q) := by
  obtain ⟨-, -, -, -, -, -, -, -, e0, e1, -⟩ := idx_facts t
  unfold iblk0
  rw [View.read_apply]
  show V c main_v19 _ = V c main_v19 _
  refine congrArg _ (funext fun a => Fin.ext ?_)
  match a with
  | ⟨0, _⟩ => show win0_4.index t 0 * 128 + 1 * p.val = p.val; rw [e0]; omega
  | ⟨1, _⟩ => show win0_4.index t 1 * 128 + 1 * q.val = q.val; rw [e1]; omega

/-- The second bias row's block is the row, at every point. -/
theorem blk5_apply (c : Dev nD) (t : Fin cfg0.N) (p : Fin 1) (q : Fin 128) :
    (iblk0 V c 5 t : Vec Ideal S1x128 .f32) (ix2 p q) = (V c main_v23 : S1x128.Idx → EReal) (ix2 p q) := by
  obtain ⟨-, -, -, -, -, -, -, -, -, -, e0, e1, -⟩ := idx_facts t
  unfold iblk0
  rw [View.read_apply]
  show V c main_v23 _ = V c main_v23 _
  refine congrArg _ (funext fun a => Fin.ext ?_)
  match a with
  | ⟨0, _⟩ => show win0_5.index t 0 * 1 + 1 * p.val = p.val; rw [e0]; omega
  | ⟨1, _⟩ => show win0_5.index t 1 * 128 + 1 * q.val = q.val; rw [e1]; omega

/-! ## What a point writes back, and the array after the launch -/

/-- The launch's result as one function of the arrays it finds. -/
abbrev result (c : Dev nD) : S100000x128.Idx → EReal :=
  Cert.Gin.layerOut (N := 100000) (V c main_arg0) (V c main_v13) (V c main_v15) (V c main_v22) (V c main_v19) (V c main_v23)

/-- WHAT POINT `t` WRITES BACK is block `t` of `result`. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  obtain ⟨-, -, -, -, -, -, -, -, -, -, -, -, e0, e1⟩ := idx_facts t
  have hN : cfg0.N = 20 := N_0
  have hR : t.val * 5000 + r.val < 100000 := by have := t.isLt; have := r.isLt; omega
  have hemb : ((cfg0.win 6).blk t).view.emb (ix2 r j) = ix2 (⟨t.val * 5000 + r.val, hR⟩ : Fin 100000) j := by
    funext a; apply Fin.ext
    match a with
    | ⟨0, _⟩ => show win0_6.index t 0 * 5000 + 1 * r.val = t.val * 5000 + r.val; rw [e0]; omega
    | ⟨1, _⟩ => show win0_6.index t 1 * 128 + 1 * j.val = j.val; rw [e1]; omega
  rw [View.read_apply, hemb]
  show k0_pay1 (F := Ideal) _ _ _ _ _ _ (ix2 r j) = Cert.Gin.layerOut (N := 100000) _ _ _ _ _ _ (ix2 (⟨t.val * 5000 + r.val, hR⟩ : Fin 100000) j)
  rw [pay_apply, Cert.Gin.layerOut_apply]
  have h0 : ∀ k : Fin 128, (iblk0 V c 0 t : Vec Ideal S5000x128 .f32) (ix2 r k) = (V c main_arg0 : S100000x128.Idx → EReal) (ix2 ⟨t.val * 5000 + r.val, hR⟩ k) :=
    fun k => blk0_apply V c t r k _ rfl
  have h1 : ∀ k : Fin 128, (iblk0 V c 1 t : Vec Ideal S5000x128 .f32) (ix2 r k) = (V c main_v13 : S100000x128.Idx → EReal) (ix2 ⟨t.val * 5000 + r.val, hR⟩ k) :=
    fun k => blk1_apply V c t r k _ rfl
  have h2 : (iblk0 V c 2 t : Vec Ideal S128x128 .f32) = (V c main_v15 : S128x128.Idx → EReal) :=
    funext fun y => by
      obtain ⟨p, q, rfl⟩ : ∃ (p q : Fin 128), y = ix2 p q := ⟨y 0, y 1, eq_ix2 y⟩
      exact blk2_apply V c t p q
  have h4 : (iblk0 V c 4 t : Vec Ideal S128x128 .f32) = (V c main_v19 : S128x128.Idx → EReal) :=
    funext fun y => by
      obtain ⟨p, q, rfl⟩ : ∃ (p q : Fin 128), y = ix2 p q := ⟨y 0, y 1, eq_ix2 y⟩
      exact blk4_apply V c t p q
  have h3 : ∀ k : Fin 128, (iblk0 V c 3 t : Vec Ideal S1x128 .f32) (ix2 (0 : Fin 1) k) = (V c main_v22 : S1x128.Idx → EReal) (ix2 (0 : Fin 1) k) :=
    fun k => blk3_apply V c t 0 k
  have h5 : ∀ k : Fin 128, (iblk0 V c 5 t : Vec Ideal S1x128 .f32) (ix2 (0 : Fin 1) k) = (V c main_v23 : S1x128.Idx → EReal) (ix2 (0 : Fin 1) k) :=
    fun k => blk5_apply V c t 0 k
  rw [h2, h4]
  simp only [h0, h1, h3, h5]

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- THE ARRAY after the launch: row `i` lies in the block of point `i / 5000`, so the blocks cover the array and it
    ends holding `result`. -/
theorem final (c : Dev nD) : (dat0 V c).arrAt 6 cfg0.N = result V c :=
  (dat0 V c).arrAt_eq_of_cover 6 (result V c) (fun t _ => flushed_eq V c t) fun i => by
    have hN : cfg0.N = 20 := N_0
    have hi0 : (i 0).val < 100000 := (i 0).isLt
    have hi1 : (i 1).val < 128 := (i 1).isLt
    have ht : (i 0).val / 5000 < cfg0.N := by rw [hN]; omega
    obtain ⟨-, -, -, -, -, -, -, -, -, -, -, -, e0, e1⟩ := idx_facts ⟨(i 0).val / 5000, ht⟩
    refine ⟨⟨(i 0).val / 5000, ht⟩, flush0_6 _, ?_⟩
    rw [mem_blk]
    intro a
    match a with
    | ⟨0, _⟩ =>
      show win0_6.index ⟨(i 0).val / 5000, ht⟩ 0 * 5000 ≤ (i 0).val ∧ (i 0).val < win0_6.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win0_6.index ⟨(i 0).val / 5000, ht⟩ 1 * 128 ≤ (i 1).val ∧ (i 1).val < win0_6.index ⟨(i 0).val / 5000, ht⟩ 1 * 128 + 128
      rw [e1]; omega

end Cert.KernelIdeal.Region0

end
-- ==== Proof.Region1.lean ====
/-
  What launch 1 of the perceptron kernel leaves in its result array: one function of the arrays it is given.

  The grid has 20 points. Point `t` is handed rows 5000·t … 5000·t + 4999 of the node features and of the
  neighbour sums, and the whole of each weight matrix and bias row; it computes 5000 output rows from them and writes
  them back as rows 5000·t … 5000·t + 4999 of the result. An output row depends on the same row of the two
  moving inputs only, so what point `t` writes is block `t` of ONE whole-array function (`Cert.Gin.layerOut`) of the
  arrays as the launch finds them; the 20 blocks tile the 100000 rows, so the result array ends holding that function.
-/
import proofs.«165193_j83038897701199_1_alg».proof.Proof.Gen.KernelIdeal.Frame
import proofs.«165193_j83038897701199_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at row `r`, column `j` of a block: the round's formula on row `r` of the two moving blocks. -/
theorem pay_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (j : Fin 128) :
    k1_pay1 (F := Ideal) x0 x1 x2 x3 x4 x5 (ix2 r j)
      = Cert.Gin.mlpRow (fun k => x0 (ix2 r k) + x1 (ix2 r k)) x2 (fun k => x3 (ix2 (0 : Fin 1) k)) x4
          (fun k => x5 (ix2 (0 : Fin 1) k)) j := by
  unfold k1_pay1
  simp only [shapeCast_self]
  exact Cert.Gin.kernel_rows _ _ _ x0 x1 x2 x3 x4 x5 r j

/-- The index maps, decided over the grid: the two moving inputs and the output sit at block row `t`, column block 0;
    the weights and biases at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each input block as rows of its array -/

/-- Row `r` of point `t`'s block of the node features is row 5000·t + r of the array. -/
theorem blk0_apply (c : Dev nD) (t : Fin cfg1.N) (r : Fin 5000) (k : Fin 128) (R : Fin 100000)
    (hR : R.val = t.val * 5000 + r.val) :
    (iblk1 V c 0 t : Vec Ideal S5000x128 .f32) (ix2 r k) = (V c main_v24 : S100000x128.Idx → EReal) (ix2 R k) := by
  obtain ⟨e0, e1, -⟩ := idx_facts t
  unfold iblk1
  rw [View.read_apply]
  show V c main_v24 _ = V c main_v24 _
  refine congrArg _ (funext fun a => Fin.ext ?_)
  match a with
  | ⟨0, _⟩ => show win1_0.index t 0 * 5000 + 1 * r.val = R.val; rw [e0, hR]; omega
  | ⟨1, _⟩ => show win1_0.index t 1 * 128 + 1 * k.val = k.val; rw [e1]; omega

/-- Row `r` of point `t`'s block of the neighbour sums is row 5000·t + r of the array. -/
theorem blk1_apply (c : Dev nD) (t : Fin cfg1.N) (r : Fin 5000) (k : Fin 128) (R : Fin 100000)
    (hR : R.val = t.val * 5000 + r.val) :
    (iblk1 V c 1 t : Vec Ideal S5000x128 .f32) (ix2 r k) = (V c main_v34 : S100000x128.Idx → EReal) (ix2 R k) := by
  obtain ⟨-, -, e0, e1, -⟩ := idx_facts t
  unfold iblk1
  rw [View.read_apply]
  show V c main_v34 _ = V c main_v34 _
  refine congrArg _ (funext fun a => Fin.ext ?_)
  match a with
  | ⟨0, _⟩ => show win1_1.index t 0 * 5000 + 1 * r.val = R.val; rw [e0, hR]; omega
  | ⟨1, _⟩ => show win1_1.index t 1 * 128 + 1 * k.val = k.val; rw [e1]; omega

/-- The first weight matrix's block is the matrix, at every point. -/
theorem blk2_apply (c : Dev nD) (t : Fin cfg1.N) (p q : Fin 128) :
    (iblk1 V c 2 t : Vec Ideal S128x128 .f32) (ix2 p q) = (V c main_v36 : S128x128.Idx → EReal) (ix2 p q) := by
  obtain ⟨-, -, -, -, e0, e1, -⟩ := idx_facts t
  unfold iblk1
  rw [View.read_apply]
  show V c main_v36 _ = V c main_v36 _
  refine congrArg _ (funext fun a => Fin.ext ?_)
  match a with
  | ⟨0, _⟩ => show win1_2.index t 0 * 128 + 1 * p.val = p.val; rw [e0]; omega
  | ⟨1, _⟩ => show win1_2.index t 1 * 128 + 1 * q.val = q.val; rw [e1]; omega

/-- The first bias row's block is the row, at every point. -/
theorem blk3_apply (c : Dev nD) (t : Fin cfg1.N) (p : Fin 1) (q : Fin 128) :
    (iblk1 V c 3 t : Vec Ideal S1x128 .f32) (ix2 p q) = (V c main_v43 : S1x128.Idx → EReal) (ix2 p q) := by
  obtain ⟨-, -, -, -, -, -, e0, e1, -⟩ := idx_facts t
  unfold iblk1
  rw [View.read_apply]
  show V c main_v43 _ = V c main_v43 _
  refine congrArg _ (funext fun a => Fin.ext ?_)
  match a with
  | ⟨0, _⟩ => show win1_3.index t 0 * 1 + 1 * p.val = p.val; rw [e0]; omega
  | ⟨1, _⟩ => show win1_3.index t 1 * 128 + 1 * q.val = q.val; rw [e1]; omega

/-- The second weight matrix's block is the matrix, at every point. -/
theorem blk4_apply (c : Dev nD) (t : Fin cfg1.N) (p q : Fin 128) :
    (iblk1 V c 4 t : Vec Ideal S128x128 .f32) (ix2 p q) = (V c main_v40 : S128x128.Idx → EReal) (ix2 p q) := by
  obtain ⟨-, -, -, -, -, -, -, -, e0, e1, -⟩ := idx_facts t
  unfold iblk1
  rw [View.read_apply]
  show V c main_v40 _ = V c main_v40 _
  refine congrArg _ (funext fun a => Fin.ext ?_)
  match a with
  | ⟨0, _⟩ => show win1_4.index t 0 * 128 + 1 * p.val = p.val; rw [e0]; omega
  | ⟨1, _⟩ => show win1_4.index t 1 * 128 + 1 * q.val = q.val; rw [e1]; omega

/-- The second bias row's block is the row, at every point. -/
theorem blk5_apply (c : Dev nD) (t : Fin cfg1.N) (p : Fin 1) (q : Fin 128) :
    (iblk1 V c 5 t : Vec Ideal S1x128 .f32) (ix2 p q) = (V c main_v44 : S1x128.Idx → EReal) (ix2 p q) := by
  obtain ⟨-, -, -, -, -, -, -, -, -, -, e0, e1, -⟩ := idx_facts t
  unfold iblk1
  rw [View.read_apply]
  show V c main_v44 _ = V c main_v44 _
  refine congrArg _ (funext fun a => Fin.ext ?_)
  match a with
  | ⟨0, _⟩ => show win1_5.index t 0 * 1 + 1 * p.val = p.val; rw [e0]; omega
  | ⟨1, _⟩ => show win1_5.index t 1 * 128 + 1 * q.val = q.val; rw [e1]; omega

/-! ## What a point writes back, and the array after the launch -/

/-- The launch's result as one function of the arrays it finds. -/
abbrev result (c : Dev nD) : S100000x128.Idx → EReal :=
  Cert.Gin.layerOut (N := 100000) (V c main_v24) (V c main_v34) (V c main_v36) (V c main_v43) (V c main_v40) (V c main_v44)

/-- WHAT POINT `t` WRITES BACK is block `t` of `result`. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  obtain ⟨-, -, -, -, -, -, -, -, -, -, -, -, e0, e1⟩ := idx_facts t
  have hN : cfg1.N = 20 := N_1
  have hR : t.val * 5000 + r.val < 100000 := by have := t.isLt; have := r.isLt; omega
  have hemb : ((cfg1.win 6).blk t).view.emb (ix2 r j) = ix2 (⟨t.val * 5000 + r.val, hR⟩ : Fin 100000) j := by
    funext a; apply Fin.ext
    match a with
    | ⟨0, _⟩ => show win1_6.index t 0 * 5000 + 1 * r.val = t.val * 5000 + r.val; rw [e0]; omega
    | ⟨1, _⟩ => show win1_6.index t 1 * 128 + 1 * j.val = j.val; rw [e1]; omega
  rw [View.read_apply, hemb]
  show k1_pay1 (F := Ideal) _ _ _ _ _ _ (ix2 r j) = Cert.Gin.layerOut (N := 100000) _ _ _ _ _ _ (ix2 (⟨t.val * 5000 + r.val, hR⟩ : Fin 100000) j)
  rw [pay_apply, Cert.Gin.layerOut_apply]
  have h0 : ∀ k : Fin 128, (iblk1 V c 0 t : Vec Ideal S5000x128 .f32) (ix2 r k) = (V c main_v24 : S100000x128.Idx → EReal) (ix2 ⟨t.val * 5000 + r.val, hR⟩ k) :=
    fun k => blk0_apply V c t r k _ rfl
  have h1 : ∀ k : Fin 128, (iblk1 V c 1 t : Vec Ideal S5000x128 .f32) (ix2 r k) = (V c main_v34 : S100000x128.Idx → EReal) (ix2 ⟨t.val * 5000 + r.val, hR⟩ k) :=
    fun k => blk1_apply V c t r k _ rfl
  have h2 : (iblk1 V c 2 t : Vec Ideal S128x128 .f32) = (V c main_v36 : S128x128.Idx → EReal) :=
    funext fun y => by
      obtain ⟨p, q, rfl⟩ : ∃ (p q : Fin 128), y = ix2 p q := ⟨y 0, y 1, eq_ix2 y⟩
      exact blk2_apply V c t p q
  have h4 : (iblk1 V c 4 t : Vec Ideal S128x128 .f32) = (V c main_v40 : S128x128.Idx → EReal) :=
    funext fun y => by
      obtain ⟨p, q, rfl⟩ : ∃ (p q : Fin 128), y = ix2 p q := ⟨y 0, y 1, eq_ix2 y⟩
      exact blk4_apply V c t p q
  have h3 : ∀ k : Fin 128, (iblk1 V c 3 t : Vec Ideal S1x128 .f32) (ix2 (0 : Fin 1) k) = (V c main_v43 : S1x128.Idx → EReal) (ix2 (0 : Fin 1) k) :=
    fun k => blk3_apply V c t 0 k
  have h5 : ∀ k : Fin 128, (iblk1 V c 5 t : Vec Ideal S1x128 .f32) (ix2 (0 : Fin 1) k) = (V c main_v44 : S1x128.Idx → EReal) (ix2 (0 : Fin 1) k) :=
    fun k => blk5_apply V c t 0 k
  rw [h2, h4]
  simp only [h0, h1, h3, h5]

/-- An index of the result array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v45).slice (win1_6.rect t)).set ↔ _
  rw [View.set_slice_whole, Rect.mem_set_unit]
  exact Iff.rfl

/-- THE ARRAY after the launch: row `i` lies in the block of point `i / 5000`, so the blocks cover the array and it
    ends holding `result`. -/
theorem final (c : Dev nD) : (dat1 V c).arrAt 6 cfg1.N = result V c :=
  (dat1 V c).arrAt_eq_of_cover 6 (result V c) (fun t _ => flushed_eq V c t) fun i => by
    have hN : cfg1.N = 20 := N_1
    have hi0 : (i 0).val < 100000 := (i 0).isLt
    have hi1 : (i 1).val < 128 := (i 1).isLt
    have ht : (i 0).val / 5000 < cfg1.N := by rw [hN]; omega
    obtain ⟨-, -, -, -, -, -, -, -, -, -, -, -, e0, e1⟩ := idx_facts ⟨(i 0).val / 5000, ht⟩
    refine ⟨⟨(i 0).val / 5000, ht⟩, flush1_6 _, ?_⟩
    rw [mem_blk]
    intro a
    match a with
    | ⟨0, _⟩ =>
      show win1_6.index ⟨(i 0).val / 5000, ht⟩ 0 * 5000 ≤ (i 0).val ∧ (i 0).val < win1_6.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win1_6.index ⟨(i 0).val / 5000, ht⟩ 1 * 128 ≤ (i 1).val ∧ (i 1).val < win1_6.index ⟨(i 0).val / 5000, ht⟩ 1 * 128 + 128
      rw [e1]; omega

end Cert.KernelIdeal.Region1

end
-- ==== Proof.Region2.lean ====
/-
  What launch 2 of the perceptron kernel leaves in its result array: one function of the arrays it is given.

  The grid has 20 points. Point `t` is handed rows 5000·t … 5000·t + 4999 of the node features and of the
  neighbour sums, and the whole of each weight matrix and bias row; it computes 5000 output rows from them and writes
  them back as rows 5000·t … 5000·t + 4999 of the result. An output row depends on the same row of the two
  moving inputs only, so what point `t` writes is block `t` of ONE whole-array function (`Cert.Gin.layerOut`) of the
  arrays as the launch finds them; the 20 blocks tile the 100000 rows, so the result array ends holding that function.
-/
import proofs.«165193_j83038897701199_1_alg».proof.Proof.Gen.KernelIdeal.Frame
import proofs.«165193_j83038897701199_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at row `r`, column `j` of a block: the round's formula on row `r` of the two moving blocks. -/
theorem pay_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (j : Fin 128) :
    k2_pay1 (F := Ideal) x0 x1 x2 x3 x4 x5 (ix2 r j)
      = Cert.Gin.mlpRow (fun k => x0 (ix2 r k) + x1 (ix2 r k)) x2 (fun k => x3 (ix2 (0 : Fin 1) k)) x4
          (fun k => x5 (ix2 (0 : Fin 1) k)) j := by
  unfold k2_pay1
  simp only [shapeCast_self]
  exact Cert.Gin.kernel_rows _ _ _ x0 x1 x2 x3 x4 x5 r j

/-- The index maps, decided over the grid: the two moving inputs and the output sit at block row `t`, column block 0;
    the weights and biases at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## Each input block as rows of its array -/

/-- Row `r` of point `t`'s block of the node features is row 5000·t + r of the array. -/
theorem blk0_apply (c : Dev nD) (t : Fin cfg2.N) (r : Fin 5000) (k : Fin 128) (R : Fin 100000)
    (hR : R.val = t.val * 5000 + r.val) :
    (iblk2 V c 0 t : Vec Ideal S5000x128 .f32) (ix2 r k) = (V c main_v45 : S100000x128.Idx → EReal) (ix2 R k) := by
  obtain ⟨e0, e1, -⟩ := idx_facts t
  unfold iblk2
  rw [View.read_apply]
  show V c main_v45 _ = V c main_v45 _
  refine congrArg _ (funext fun a => Fin.ext ?_)
  match a with
  | ⟨0, _⟩ => show win2_0.index t 0 * 5000 + 1 * r.val = R.val; rw [e0, hR]; omega
  | ⟨1, _⟩ => show win2_0.index t 1 * 128 + 1 * k.val = k.val; rw [e1]; omega

/-- Row `r` of point `t`'s block of the neighbour sums is row 5000·t + r of the array. -/
theorem blk1_apply (c : Dev nD) (t : Fin cfg2.N) (r : Fin 5000) (k : Fin 128) (R : Fin 100000)
    (hR : R.val = t.val * 5000 + r.val) :
    (iblk2 V c 1 t : Vec Ideal S5000x128 .f32) (ix2 r k) = (V c main_v55 : S100000x128.Idx → EReal) (ix2 R k) := by
  obtain ⟨-, -, e0, e1, -⟩ := idx_facts t
  unfold iblk2
  rw [View.read_apply]
  show V c main_v55 _ = V c main_v55 _
  refine congrArg _ (funext fun a => Fin.ext ?_)
  match a with
  | ⟨0, _⟩ => show win2_1.index t 0 * 5000 + 1 * r.val = R.val; rw [e0, hR]; omega
  | ⟨1, _⟩ => show win2_1.index t 1 * 128 + 1 * k.val = k.val; rw [e1]; omega

/-- The first weight matrix's block is the matrix, at every point. -/
theorem blk2_apply (c : Dev nD) (t : Fin cfg2.N) (p q : Fin 128) :
    (iblk2 V c 2 t : Vec Ideal S128x128 .f32) (ix2 p q) = (V c main_v57 : S128x128.Idx → EReal) (ix2 p q) := by
  obtain ⟨-, -, -, -, e0, e1, -⟩ := idx_facts t
  unfold iblk2
  rw [View.read_apply]
  show V c main_v57 _ = V c main_v57 _
  refine congrArg _ (funext fun a => Fin.ext ?_)
  match a with
  | ⟨0, _⟩ => show win2_2.index t 0 * 128 + 1 * p.val = p.val; rw [e0]; omega
  | ⟨1, _⟩ => show win2_2.index t 1 * 128 + 1 * q.val = q.val; rw [e1]; omega

/-- The first bias row's block is the row, at every point. -/
theorem blk3_apply (c : Dev nD) (t : Fin cfg2.N) (p : Fin 1) (q : Fin 128) :
    (iblk2 V c 3 t : Vec Ideal S1x128 .f32) (ix2 p q) = (V c main_v64 : S1x128.Idx → EReal) (ix2 p q) := by
  obtain ⟨-, -, -, -, -, -, e0, e1, -⟩ := idx_facts t
  unfold iblk2
  rw [View.read_apply]
  show V c main_v64 _ = V c main_v64 _
  refine congrArg _ (funext fun a => Fin.ext ?_)
  match a with
  | ⟨0, _⟩ => show win2_3.index t 0 * 1 + 1 * p.val = p.val; rw [e0]; omega
  | ⟨1, _⟩ => show win2_3.index t 1 * 128 + 1 * q.val = q.val; rw [e1]; omega

/-- The second weight matrix's block is the matrix, at every point. -/
theorem blk4_apply (c : Dev nD) (t : Fin cfg2.N) (p q : Fin 128) :
    (iblk2 V c 4 t : Vec Ideal S128x128 .f32) (ix2 p q) = (V c main_v61 : S128x128.Idx → EReal) (ix2 p q) := by
  obtain ⟨-, -, -, -, -, -, -, -, e0, e1, -⟩ := idx_facts t
  unfold iblk2
  rw [View.read_apply]
  show V c main_v61 _ = V c main_v61 _
  refine congrArg _ (funext fun a => Fin.ext ?_)
  match a with
  | ⟨0, _⟩ => show win2_4.index t 0 * 128 + 1 * p.val = p.val; rw [e0]; omega
  | ⟨1, _⟩ => show win2_4.index t 1 * 128 + 1 * q.val = q.val; rw [e1]; omega

/-- The second bias row's block is the row, at every point. -/
theorem blk5_apply (c : Dev nD) (t : Fin cfg2.N) (p : Fin 1) (q : Fin 128) :
    (iblk2 V c 5 t : Vec Ideal S1x128 .f32) (ix2 p q) = (V c main_v65 : S1x128.Idx → EReal) (ix2 p q) := by
  obtain ⟨-, -, -, -, -, -, -, -, -, -, e0, e1, -⟩ := idx_facts t
  unfold iblk2
  rw [View.read_apply]
  show V c main_v65 _ = V c main_v65 _
  refine congrArg _ (funext fun a => Fin.ext ?_)
  match a with
  | ⟨0, _⟩ => show win2_5.index t 0 * 1 + 1 * p.val = p.val; rw [e0]; omega
  | ⟨1, _⟩ => show win2_5.index t 1 * 128 + 1 * q.val = q.val; rw [e1]; omega

/-! ## What a point writes back, and the array after the launch -/

/-- The launch's result as one function of the arrays it finds. -/
abbrev result (c : Dev nD) : S100000x128.Idx → EReal :=
  Cert.Gin.layerOut (N := 100000) (V c main_v45) (V c main_v55) (V c main_v57) (V c main_v64) (V c main_v61) (V c main_v65)

/-- WHAT POINT `t` WRITES BACK is block `t` of `result`. -/
theorem flushed_eq (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  obtain ⟨-, -, -, -, -, -, -, -, -, -, -, -, e0, e1⟩ := idx_facts t
  have hN : cfg2.N = 20 := N_2
  have hR : t.val * 5000 + r.val < 100000 := by have := t.isLt; have := r.isLt; omega
  have hemb : ((cfg2.win 6).blk t).view.emb (ix2 r j) = ix2 (⟨t.val * 5000 + r.val, hR⟩ : Fin 100000) j := by
    funext a; apply Fin.ext
    match a with
    | ⟨0, _⟩ => show win2_6.index t 0 * 5000 + 1 * r.val = t.val * 5000 + r.val; rw [e0]; omega
    | ⟨1, _⟩ => show win2_6.index t 1 * 128 + 1 * j.val = j.val; rw [e1]; omega
  rw [View.read_apply, hemb]
  show k2_pay1 (F := Ideal) _ _ _ _ _ _ (ix2 r j) = Cert.Gin.layerOut (N := 100000) _ _ _ _ _ _ (ix2 (⟨t.val * 5000 + r.val, hR⟩ : Fin 100000) j)
  rw [pay_apply, Cert.Gin.layerOut_apply]
  have h0 : ∀ k : Fin 128, (iblk2 V c 0 t : Vec Ideal S5000x128 .f32) (ix2 r k) = (V c main_v45 : S100000x128.Idx → EReal) (ix2 ⟨t.val * 5000 + r.val, hR⟩ k) :=
    fun k => blk0_apply V c t r k _ rfl
  have h1 : ∀ k : Fin 128, (iblk2 V c 1 t : Vec Ideal S5000x128 .f32) (ix2 r k) = (V c main_v55 : S100000x128.Idx → EReal) (ix2 ⟨t.val * 5000 + r.val, hR⟩ k) :=
    fun k => blk1_apply V c t r k _ rfl
  have h2 : (iblk2 V c 2 t : Vec Ideal S128x128 .f32) = (V c main_v57 : S128x128.Idx → EReal) :=
    funext fun y => by
      obtain ⟨p, q, rfl⟩ : ∃ (p q : Fin 128), y = ix2 p q := ⟨y 0, y 1, eq_ix2 y⟩
      exact blk2_apply V c t p q
  have h4 : (iblk2 V c 4 t : Vec Ideal S128x128 .f32) = (V c main_v61 : S128x128.Idx → EReal) :=
    funext fun y => by
      obtain ⟨p, q, rfl⟩ : ∃ (p q : Fin 128), y = ix2 p q := ⟨y 0, y 1, eq_ix2 y⟩
      exact blk4_apply V c t p q
  have h3 : ∀ k : Fin 128, (iblk2 V c 3 t : Vec Ideal S1x128 .f32) (ix2 (0 : Fin 1) k) = (V c main_v64 : S1x128.Idx → EReal) (ix2 (0 : Fin 1) k) :=
    fun k => blk3_apply V c t 0 k
  have h5 : ∀ k : Fin 128, (iblk2 V c 5 t : Vec Ideal S1x128 .f32) (ix2 (0 : Fin 1) k) = (V c main_v65 : S1x128.Idx → EReal) (ix2 (0 : Fin 1) k) :=
    fun k => blk5_apply V c t 0 k
  rw [h2, h4]
  simp only [h0, h1, h3, h5]

/-- An index of the result array is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v66).slice (win2_6.rect t)).set ↔ _
  rw [View.set_slice_whole, Rect.mem_set_unit]
  exact Iff.rfl

/-- THE ARRAY after the launch: row `i` lies in the block of point `i / 5000`, so the blocks cover the array and it
    ends holding `result`. -/
theorem final (c : Dev nD) : (dat2 V c).arrAt 6 cfg2.N = result V c :=
  (dat2 V c).arrAt_eq_of_cover 6 (result V c) (fun t _ => flushed_eq V c t) fun i => by
    have hN : cfg2.N = 20 := N_2
    have hi0 : (i 0).val < 100000 := (i 0).isLt
    have hi1 : (i 1).val < 128 := (i 1).isLt
    have ht : (i 0).val / 5000 < cfg2.N := by rw [hN]; omega
    obtain ⟨-, -, -, -, -, -, -, -, -, -, -, -, e0, e1⟩ := idx_facts ⟨(i 0).val / 5000, ht⟩
    refine ⟨⟨(i 0).val / 5000, ht⟩, flush2_6 _, ?_⟩
    rw [mem_blk]
    intro a
    match a with
    | ⟨0, _⟩ =>
      show win2_6.index ⟨(i 0).val / 5000, ht⟩ 0 * 5000 ≤ (i 0).val ∧ (i 0).val < win2_6.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win2_6.index ⟨(i 0).val / 5000, ht⟩ 1 * 128 ≤ (i 1).val ∧ (i 1).val < win2_6.index ⟨(i 0).val / 5000, ht⟩ 1 * 128 + 128
      rw [e1]; omega

end Cert.KernelIdeal.Region2

end
-- ==== Proof.Stretches.lean ====
/-
  The three stretches of host operations around the launches, read back.

  Each stretch starts from some buffer contents `B` (a VARIABLE here) and writes a few buffers the next launch reads:

  * the neighbour sums: from the two endpoint lists `s`, `d` of the edges (rows 0 and 1 of the edge array, each recast as a
    flat list) and the node features `x` it gathers row `s e` of `x` for every edge `e` (a negative endpoint wrapped round
    by the node count first) and adds it into row `d e` of a zero array — `aggOf s d x`;
  * layer `L`'s two weight matrices: slab `L` of a [3, 128, 128] argument recast as [128, 128] — `wmat`;
  * layer `L`'s two bias rows: row `L` of a [3, 128] argument recast as a [128] vector and again as a [1, 128] row — `brow`.

  The endpoint lists are written once, by the first stretch, and read again by the other two; the arguments and the
  previous launch's result are read and never written. Nothing here looks inside `aggOf`: it is carried as one function.
-/
import proofs.«165193_j83038897701199_1_alg».proof.Proof.Gen.KernelIdeal.Launch
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen

/-- The edges' source endpoints: row 0 of the edge array as a flat list. -/
def srcOf (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edges' target endpoints: row 1 of the edge array as a flat list. -/
def dstOf (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The neighbour sums of the features `x` over the edges with endpoint lists `s` (sources) and `d` (targets). -/
def aggOf (s d : (⟨S1600000, .i32⟩ : BufTy).Contents (Elt Ideal)) (x : (⟨S100000x128, .f32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- One [128, 128] slab of a [3, 128, 128] argument. -/
def wmat (off : Fin 3 → Nat) (h : S3x128x128.Slices off S1x128x128) (a : (⟨S3x128x128, .f32⟩ : BufTy).Contents (Elt Ideal)) :
    (⟨S128x128, .f32⟩ : BufTy).Contents (Elt Ideal) :=
  shapeCast _ (extractStridedSlice S1x128x128 off a h) shapeCasts_S1x128x128_S128x128

/-- One row of a [3, 128] argument as a [128] vector. -/
def bvec (off : Fin 2 → Nat) (h : S3x128.Slices off S1x128) (a : (⟨S3x128, .f32⟩ : BufTy).Contents (Elt Ideal)) :
    (⟨S128, .f32⟩ : BufTy).Contents (Elt Ideal) :=
  shapeCast _ (extractStridedSlice S1x128 off a h) shapeCasts_S1x128_S128

/-- The same row as a [1, 128] row again. -/
def brow (off : Fin 2 → Nat) (h : S3x128.Slices off S1x128) (a : (⟨S3x128, .f32⟩ : BufTy).Contents (Elt Ideal)) :
    (⟨S1x128, .f32⟩ : BufTy).Contents (Elt Ideal) :=
  shapeCast _ (bvec off h a) shapeCasts_S128_S1x128

variable (B : Valuation τ sig (Elt Ideal))

/-! ## The first stretch -/

theorem s0_src : after hostOps0 B (Proc.devRef .tc main_v1) = srcOf (B (Proc.devRef .tc main_arg1)) := by
  after_results; rfl
theorem s0_dst : after hostOps0 B (Proc.devRef .tc main_v3) = dstOf (B (Proc.devRef .tc main_arg1)) := by
  after_results; rfl
theorem s0_agg : after hostOps0 B (Proc.devRef .tc main_v13)
    = aggOf (srcOf (B (Proc.devRef .tc main_arg1))) (dstOf (B (Proc.devRef .tc main_arg1))) (B (Proc.devRef .tc main_arg0)) := by
  after_results; rfl
theorem s0_w1 : after hostOps0 B (Proc.devRef .tc main_v15) = wmat ![0, 0, 0] slices_S3x128x128_S1x128x128_0_0_0 (B (Proc.devRef .tc main_arg2)) := by
  after_results; rfl
theorem s0_b1 : after hostOps0 B (Proc.devRef .tc main_v22) = brow ![0, 0] slices_S3x128_S1x128_0_0 (B (Proc.devRef .tc main_arg3)) := by
  after_results; rfl
theorem s0_w2 : after hostOps0 B (Proc.devRef .tc main_v19) = wmat ![0, 0, 0] slices_S3x128x128_S1x128x128_0_0_0 (B (Proc.devRef .tc main_arg4)) := by
  after_results; rfl
theorem s0_b2 : after hostOps0 B (Proc.devRef .tc main_v23) = brow ![0, 0] slices_S3x128_S1x128_0_0 (B (Proc.devRef .tc main_arg5)) := by
  after_results; rfl
theorem s0_arg0 : after hostOps0 B (Proc.devRef .tc main_arg0) = B (Proc.devRef .tc main_arg0) := by after_results
theorem s0_arg2 : after hostOps0 B (Proc.devRef .tc main_arg2) = B (Proc.devRef .tc main_arg2) := by after_results
theorem s0_arg3 : after hostOps0 B (Proc.devRef .tc main_arg3) = B (Proc.devRef .tc main_arg3) := by after_results
theorem s0_arg4 : after hostOps0 B (Proc.devRef .tc main_arg4) = B (Proc.devRef .tc main_arg4) := by after_results
theorem s0_arg5 : after hostOps0 B (Proc.devRef .tc main_arg5) = B (Proc.devRef .tc main_arg5) := by after_results

/-! ## The second stretch -/

theorem s1_x : after hostOps1 B (Proc.devRef .tc main_v24) = B (Proc.devRef .tc main_v24) := by after_results
theorem s1_agg : after hostOps1 B (Proc.devRef .tc main_v34)
    = aggOf (B (Proc.devRef .tc main_v1)) (B (Proc.devRef .tc main_v3)) (B (Proc.devRef .tc main_v24)) := by
  after_results; rfl
theorem s1_w1 : after hostOps1 B (Proc.devRef .tc main_v36) = wmat ![1, 0, 0] slices_S3x128x128_S1x128x128_1_0_0 (B (Proc.devRef .tc main_arg2)) := by
  after_results; rfl
theorem s1_b1 : after hostOps1 B (Proc.devRef .tc main_v43) = brow ![1, 0] slices_S3x128_S1x128_1_0 (B (Proc.devRef .tc main_arg3)) := by
  after_results; rfl
theorem s1_w2 : after hostOps1 B (Proc.devRef .tc main_v40) = wmat ![1, 0, 0] slices_S3x128x128_S1x128x128_1_0_0 (B (Proc.devRef .tc main_arg4)) := by
  after_results; rfl
theorem s1_b2 : after hostOps1 B (Proc.devRef .tc main_v44) = brow ![1, 0] slices_S3x128_S1x128_1_0 (B (Proc.devRef .tc main_arg5)) := by
  after_results; rfl
theorem s1_src : after hostOps1 B (Proc.devRef .tc main_v1) = B (Proc.devRef .tc main_v1) := by after_results
theorem s1_dst : after hostOps1 B (Proc.devRef .tc main_v3) = B (Proc.devRef .tc main_v3) := by after_results
theorem s1_arg2 : after hostOps1 B (Proc.devRef .tc main_arg2) = B (Proc.devRef .tc main_arg2) := by after_results
theorem s1_arg3 : after hostOps1 B (Proc.devRef .tc main_arg3) = B (Proc.devRef .tc main_arg3) := by after_results
theorem s1_arg4 : after hostOps1 B (Proc.devRef .tc main_arg4) = B (Proc.devRef .tc main_arg4) := by after_results
theorem s1_arg5 : after hostOps1 B (Proc.devRef .tc main_arg5) = B (Proc.devRef .tc main_arg5) := by after_results

/-! ## The third stretch -/

theorem s2_x : after hostOps2 B (Proc.devRef .tc main_v45) = B (Proc.devRef .tc main_v45) := by after_results
theorem s2_agg : after hostOps2 B (Proc.devRef .tc main_v55)
    = aggOf (B (Proc.devRef .tc main_v1)) (B (Proc.devRef .tc main_v3)) (B (Proc.devRef .tc main_v45)) := by
  after_results; rfl
theorem s2_w1 : after hostOps2 B (Proc.devRef .tc main_v57) = wmat ![2, 0, 0] slices_S3x128x128_S1x128x128_2_0_0 (B (Proc.devRef .tc main_arg2)) := by
  after_results; rfl
theorem s2_b1 : after hostOps2 B (Proc.devRef .tc main_v64) = brow ![2, 0] slices_S3x128_S1x128_2_0 (B (Proc.devRef .tc main_arg3)) := by
  after_results; rfl
theorem s2_w2 : after hostOps2 B (Proc.devRef .tc main_v61) = wmat ![2, 0, 0] slices_S3x128x128_S1x128x128_2_0_0 (B (Proc.devRef .tc main_arg4)) := by
  after_results; rfl
theorem s2_b2 : after hostOps2 B (Proc.devRef .tc main_v65) = brow ![2, 0] slices_S3x128_S1x128_2_0 (B (Proc.devRef .tc main_arg5)) := by
  after_results; rfl

end Cert.KernelIdeal.Stretch

end
-- ==== Proof.KernelValue.lean ====
/-
  What the idealized program's result buffer holds at the return: three rounds of the arguments.

  The boundary contents `W1 … W6` are a fold through @main. Reading them at the buffers that matter:

  * the first stretch writes the two endpoint lists of the edges, the neighbour sums of the node features, and layer 0's
    weights and bias rows; launch 0 then leaves `round` of them in its result buffer (its array after the launch is
    `Cert.Gin.layerOut` of the arrays it finds: `Region0.final`);
  * the second stretch reads that result and the endpoint lists back, writes the neighbour sums of the result and layer
    1's weights and bias rows; launch 1 leaves `round` of those; and the same once more.

  The endpoint lists and the four weight and bias arguments are written by no launch and by no later stretch, so each
  boundary holds them as the first stretch (or the launch) left them: `Carried`.
-/
import proofs.«165193_j83038897701199_1_alg».proof.Proof.Gen.KernelIdeal.Frame
import proofs.«165193_j83038897701199_1_alg».proof.Proof.Region0
import proofs.«165193_j83038897701199_1_alg».proof.Proof.Region1
import proofs.«165193_j83038897701199_1_alg».proof.Proof.Region2
import proofs.«165193_j83038897701199_1_alg».proof.Proof.Stretches
import proofs.«165193_j83038897701199_1_alg».proof.Proof.Spec

set_option maxRecDepth 16384

noncomputable section

open Idealize.ShloMosaic Idealize.ShloMosaic.TcCoe Idealize.SL.Sem Idealize.ShloMosaic.StableHlo

namespace Cert.KernelIdeal.KValue

open Cert.KernelIdeal Cert.KernelIdeal.Gen Cert.KernelIdeal.Stretch

/-- One round as the launches compute it: the round's formula on the features and their neighbour sums, the biases
    as [1, 128] rows. -/
def round (s d : (⟨S1600000, .i32⟩ : BufTy).Contents (Elt Ideal)) (x : (⟨S100000x128, .f32⟩ : BufTy).Contents (Elt Ideal))
    (w1 : (⟨S128x128, .f32⟩ : BufTy).Contents (Elt Ideal)) (b1 : (⟨S1x128, .f32⟩ : BufTy).Contents (Elt Ideal))
    (w2 : (⟨S128x128, .f32⟩ : BufTy).Contents (Elt Ideal)) (b2 : (⟨S1x128, .f32⟩ : BufTy).Contents (Elt Ideal)) :
    (⟨S100000x128, .f32⟩ : BufTy).Contents (Elt Ideal) :=
  Cert.Gin.layerOut (N := 100000) x (aggOf s d x) w1 b1 w2 b2

/-- Equal arrays in, equal round out. -/
theorem layerOut_congr {x x' a a' : S100000x128.Idx → EReal} {w1 w1' w2 w2' : S128x128.Idx → EReal} {b1 b1' b2 b2' : S1x128.Idx → EReal}
    (hx : x = x') (ha : a = a') (hw1 : w1 = w1') (hb1 : b1 = b1') (hw2 : w2 = w2') (hb2 : b2 = b2') :
    Cert.Gin.layerOut (N := 100000) x a w1 b1 w2 b2 = Cert.Gin.layerOut (N := 100000) x' a' w1' b1' w2' b2' := by
  subst hx ha hw1 hb1 hw2 hb2; rfl

/-- The three rounds' result from the six argument arrays. -/
def result (x : (⟨S100000x128, .f32⟩ : BufTy).Contents (Elt Ideal)) (e : (⟨S2x1600000, .i32⟩ : BufTy).Contents (Elt Ideal))
    (a2 : (⟨S3x128x128, .f32⟩ : BufTy).Contents (Elt Ideal)) (a3 : (⟨S3x128, .f32⟩ : BufTy).Contents (Elt Ideal))
    (a4 : (⟨S3x128x128, .f32⟩ : BufTy).Contents (Elt Ideal)) (a5 : (⟨S3x128, .f32⟩ : BufTy).Contents (Elt Ideal)) :
    (⟨S100000x128, .f32⟩ : BufTy).Contents (Elt Ideal) :=
  round (srcOf e) (dstOf e)
    (round (srcOf e) (dstOf e)
      (round (srcOf e) (dstOf e) x
        (wmat ![0, 0, 0] slices_S3x128x128_S1x128x128_0_0_0 a2) (brow ![0, 0] slices_S3x128_S1x128_0_0 a3)
        (wmat ![0, 0, 0] slices_S3x128x128_S1x128x128_0_0_0 a4) (brow ![0, 0] slices_S3x128_S1x128_0_0 a5))
      (wmat ![1, 0, 0] slices_S3x128x128_S1x128x128_1_0_0 a2) (brow ![1, 0] slices_S3x128_S1x128_1_0 a3)
      (wmat ![1, 0, 0] slices_S3x128x128_S1x128x128_1_0_0 a4) (brow ![1, 0] slices_S3x128_S1x128_1_0 a5))
    (wmat ![2, 0, 0] slices_S3x128x128_S1x128x128_2_0_0 a2) (brow ![2, 0] slices_S3x128_S1x128_2_0 a3)
    (wmat ![2, 0, 0] slices_S3x128x128_S1x128x128_2_0_0 a4) (brow ![2, 0] slices_S3x128_S1x128_2_0 a5)

variable (m : (ℓ : Loc nD τ sig) → Buf (Elt Ideal) ℓ) (ρ : Dev nD → PrngReg) (c : Dev nD)

/-- What every boundary from the first stretch on holds at the buffers no launch and no later stretch writes: the two
    endpoint lists and the four weight and bias arguments. -/
def Carried (B : Valuation τ sig (Elt Ideal)) : Prop :=
  B (Proc.devRef .tc main_v1) = srcOf (m ((c : Thread nD τ).loc main_arg1))
  ∧ B (Proc.devRef .tc main_v3) = dstOf (m ((c : Thread nD τ).loc main_arg1))
  ∧ B (Proc.devRef .tc main_arg2) = m ((c : Thread nD τ).loc main_arg2)
  ∧ B (Proc.devRef .tc main_arg3) = m ((c : Thread nD τ).loc main_arg3)
  ∧ B (Proc.devRef .tc main_arg4) = m ((c : Thread nD τ).loc main_arg4)
  ∧ B (Proc.devRef .tc main_arg5) = m ((c : Thread nD τ).loc main_arg5)

theorem carried1 : Carried m c (W1 m ρ c) :=
  ⟨s0_src (W0 m ρ c), s0_dst (W0 m ρ c), s0_arg2 (W0 m ρ c), s0_arg3 (W0 m ρ c), s0_arg4 (W0 m ρ c), s0_arg5 (W0 m ρ c)⟩

theorem carried2 : Carried m c (W2 m ρ c) := by
  obtain ⟨h1, h3, a2, a3, a4, a5⟩ := carried1 m ρ c
  exact ⟨(W2_of_ne m ρ c main_v1 (by decide)).trans h1, (W2_of_ne m ρ c main_v3 (by decide)).trans h3,
    (W2_of_ne m ρ c main_arg2 (by decide)).trans a2, (W2_of_ne m ρ c main_arg3 (by decide)).trans a3,
    (W2_of_ne m ρ c main_arg4 (by decide)).trans a4, (W2_of_ne m ρ c main_arg5 (by decide)).trans a5⟩

theorem carried3 : Carried m c (W3 m ρ c) := by
  obtain ⟨h1, h3, a2, a3, a4, a5⟩ := carried2 m ρ c
  exact ⟨(s1_src (W2 m ρ c)).trans h1, (s1_dst (W2 m ρ c)).trans h3, (s1_arg2 (W2 m ρ c)).trans a2,
    (s1_arg3 (W2 m ρ c)).trans a3, (s1_arg4 (W2 m ρ c)).trans a4, (s1_arg5 (W2 m ρ c)).trans a5⟩

theorem carried4 : Carried m c (W4 m ρ c) := by
  obtain ⟨h1, h3, a2, a3, a4, a5⟩ := carried3 m ρ c
  exact ⟨(W4_of_ne m ρ c main_v1 (by decide)).trans h1, (W4_of_ne m ρ c main_v3 (by decide)).trans h3,
    (W4_of_ne m ρ c main_arg2 (by decide)).trans a2, (W4_of_ne m ρ c main_arg3 (by decide)).trans a3,
    (W4_of_ne m ρ c main_arg4 (by decide)).trans a4, (W4_of_ne m ρ c main_arg5 (by decide)).trans a5⟩

/-- Round 0's output, from the arguments. -/
abbrev out0 : (⟨S100000x128, .f32⟩ : BufTy).Contents (Elt Ideal) :=
  round (srcOf (m ((c : Thread nD τ).loc main_arg1))) (dstOf (m ((c : Thread nD τ).loc main_arg1))) (m ((c : Thread nD τ).loc main_arg0))
    (wmat ![0, 0, 0] slices_S3x128x128_S1x128x128_0_0_0 (m ((c : Thread nD τ).loc main_arg2)))
    (brow ![0, 0] slices_S3x128_S1x128_0_0 (m ((c : Thread nD τ).loc main_arg3)))
    (wmat ![0, 0, 0] slices_S3x128x128_S1x128x128_0_0_0 (m ((c : Thread nD τ).loc main_arg4)))
    (brow ![0, 0] slices_S3x128_S1x128_0_0 (m ((c : Thread nD τ).loc main_arg5)))

/-- Round 1's output, from the arguments. -/
abbrev out1 : (⟨S100000x128, .f32⟩ : BufTy).Contents (Elt Ideal) :=
  round (srcOf (m ((c : Thread nD τ).loc main_arg1))) (dstOf (m ((c : Thread nD τ).loc main_arg1))) (out0 m c)
    (wmat ![1, 0, 0] slices_S3x128x128_S1x128x128_1_0_0 (m ((c : Thread nD τ).loc main_arg2)))
    (brow ![1, 0] slices_S3x128_S1x128_1_0 (m ((c : Thread nD τ).loc main_arg3)))
    (wmat ![1, 0, 0] slices_S3x128x128_S1x128x128_1_0_0 (m ((c : Thread nD τ).loc main_arg4)))
    (brow ![1, 0] slices_S3x128_S1x128_1_0 (m ((c : Thread nD τ).loc main_arg5)))

/-- After launch 0 its result buffer holds round 0's output. -/
theorem after_launch0 : W2 m ρ c (Proc.devRef .tc main_v24) = out0 m c := by
  refine (W2_arr m ρ c 6).trans ((Cert.KernelIdeal.Region0.final (V1 m ρ) c).trans ?_)
  exact layerOut_congr (s0_arg0 (W0 m ρ c)) (s0_agg (W0 m ρ c)) (s0_w1 (W0 m ρ c)) (s0_b1 (W0 m ρ c)) (s0_w2 (W0 m ρ c)) (s0_b2 (W0 m ρ c))

/-- After launch 1 its result buffer holds round 1's output. -/
theorem after_launch1 : W4 m ρ c (Proc.devRef .tc main_v45) = out1 m c := by
  obtain ⟨h1, h3, a2, a3, a4, a5⟩ := carried2 m ρ c
  refine (W4_arr m ρ c 6).trans ((Cert.KernelIdeal.Region1.final (V3 m ρ) c).trans ?_)
  have hx : W3 m ρ c (Proc.devRef .tc main_v24) = out0 m c := (s1_x (W2 m ρ c)).trans (after_launch0 m ρ c)
  refine layerOut_congr hx ?_ ?_ ?_ ?_ ?_
  · refine (s1_agg (W2 m ρ c)).trans ?_
    rw [h1, h3, after_launch0]
  · refine (s1_w1 (W2 m ρ c)).trans ?_; rw [a2]
  · refine (s1_b1 (W2 m ρ c)).trans ?_; rw [a3]
  · refine (s1_w2 (W2 m ρ c)).trans ?_; rw [a4]
  · refine (s1_b2 (W2 m ρ c)).trans ?_; rw [a5]

/-- AT THE RETURN the result buffer holds the three rounds of the arguments. -/
theorem value : W6 m ρ c (Proc.devRef .tc main_v66)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  obtain ⟨h1, h3, a2, a3, a4, a5⟩ := carried4 m ρ c
  refine (W6_arr m ρ c 6).trans ((Cert.KernelIdeal.Region2.final (V5 m ρ) c).trans ?_)
  have hx : W5 m ρ c (Proc.devRef .tc main_v45) = out1 m c := (s2_x (W4 m ρ c)).trans (after_launch1 m ρ c)
  refine layerOut_congr hx ?_ ?_ ?_ ?_ ?_
  · refine (s2_agg (W4 m ρ c)).trans ?_
    rw [h1, h3, after_launch1]
  · refine (s2_w1 (W4 m ρ c)).trans ?_; rw [a2]
  · refine (s2_b1 (W4 m ρ c)).trans ?_; rw [a3]
  · refine (s2_w2 (W4 m ρ c)).trans ?_; rw [a4]
  · refine (s2_b2 (W4 m ρ c)).trans ?_; rw [a5]

end Cert.KernelIdeal.KValue

end
-- ==== Proof.RefValue.lean ====
/-
  The reference's result as three rounds, and a round read at an entry.

  The reference is a straight line of host operations. Its result term is the round function applied three times,
      x ↦ relu ((x + agg x) · W1 + b1) · W2 + b2,
  to the node features, with layer `L`'s weights and biases cut out of the arguments: slab `L` of a [3, 128, 128] array
  recast as [128, 128], row `L` of a [3, 128] array recast as a [128] vector. `agg x` is the neighbour sum of `x` over
  the edges (a gather of source rows added into target rows of a zero array); it is carried as one function of `x`
  and of the two endpoint lists, and never opened.

  * `res_eq`: the run's result term IS the three nested rounds (the same operations, regrouped);
  * `layer_apply`: a round at node `i`, feature `j` is `Cert.Gin.mlpRow` of row `i` of `x + agg x`: each `dot_general` is a
    sum over the contracted index, a bias vector spread to a row and down the rows reads the vector at the column,
    and the maximum is taken against an array that holds the zero word everywhere.
-/
import proofs.«165193_j83038897701199_1_alg».proof.Proof.Gen.ReferenceIdeal.Run
import proofs.«165193_j83038897701199_1_alg».proof.Proof.Spec

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen

/-- The edges' source endpoints: row 0 of the edge array as a flat list. -/
def srcOf (e : IVec S2x1600000 32) : IVec S1600000 32 :=
  shapeCast _ (extractStridedSlice S1x1600000 ![0, 0] e slices_S2x1600000_S1x1600000_0_0) shapeCasts_S1x1600000_S1600000

/-- The edges' target endpoints: row 1 of the edge array as a flat list. -/
def dstOf (e : IVec S2x1600000 32) : IVec S1600000 32 :=
  shapeCast _ (extractStridedSlice S1x1600000 ![1, 0] e slices_S2x1600000_S1x1600000_1_0) shapeCasts_S1x1600000_S1600000

/-- The [100000, 128] array of zero words. -/
def zeroN : FVec Ideal S100000x128 .f32 :=
  broadcastInDim S100000x128 ![] bcast_S_S100000x128 (constant (F := Ideal) S_ .f32 0x00000000#32)

/-- The neighbour sums of the features `x` over the edges with endpoint lists `s` (sources) and `d` (targets). -/
def aggOf (s d : IVec S1600000 32) (x : FVec Ideal S100000x128 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- One [128, 128] slab of a [3, 128, 128] argument. -/
def wmat (off : Fin 3 → Nat) (h : S3x128x128.Slices off S1x128x128) (a : FVec Ideal S3x128x128 .f32) :
    FVec Ideal S128x128 .f32 :=
  shapeCast _ (extractStridedSlice S1x128x128 off a h) shapeCasts_S1x128x128_S128x128

/-- One row of a [3, 128] argument as a [128] vector. -/
def bvec (off : Fin 2 → Nat) (h : S3x128.Slices off S1x128) (a : FVec Ideal S3x128 .f32) :
    FVec Ideal S128 .f32 :=
  shapeCast _ (extractStridedSlice S1x128 off a h) shapeCasts_S1x128_S128

/-- A [128] bias vector as a full [100000, 128] array: spread to a row, then down the rows. -/
def biasN (v : FVec Ideal S128 .f32) : FVec Ideal S100000x128 .f32 :=
  broadcastInDim S100000x128 ![0, 1] bcast_S1x128_S100000x128_0_1 (broadcastInDim S1x128 ![1] bcast_S128_S1x128_1 v)

/-- One round on the host. -/
def layer (s d : IVec S1600000 32) (x : FVec Ideal S100000x128 .f32)
    (w1 : FVec Ideal S128x128 .f32) (b1 : FVec Ideal S128 .f32)
    (w2 : FVec Ideal S128x128 .f32) (b2 : FVec Ideal S128 .f32) :
    FVec Ideal S100000x128 .f32 :=
  addf (F := Ideal) (Host.dotGeneral dot_S100000x128_S128x128_S100000x128_1_0_0_1_n_n none
      (maximumf (F := Ideal) (addf (F := Ideal) (Host.dotGeneral dot_S100000x128_S128x128_S100000x128_1_0_0_1_n_n none (addf x (aggOf s d x)) w1) (biasN b1)) zeroN)
      w2) (biasN b2)

/-- The three rounds' result from the six argument arrays. -/
def result (x : FVec Ideal S100000x128 .f32) (e : IVec S2x1600000 32)
    (a2 : FVec Ideal S3x128x128 .f32) (a3 : FVec Ideal S3x128 .f32)
    (a4 : FVec Ideal S3x128x128 .f32) (a5 : FVec Ideal S3x128 .f32) :
    FVec Ideal S100000x128 .f32 :=
  layer (srcOf e) (dstOf e)
    (layer (srcOf e) (dstOf e)
      (layer (srcOf e) (dstOf e) x
        (wmat ![0, 0, 0] slices_S3x128x128_S1x128x128_0_0_0 a2) (bvec ![0, 0] slices_S3x128_S1x128_0_0 a3)
        (wmat ![0, 0, 0] slices_S3x128x128_S1x128x128_0_0_0 a4) (bvec ![0, 0] slices_S3x128_S1x128_0_0 a5))
      (wmat ![1, 0, 0] slices_S3x128x128_S1x128x128_1_0_0 a2) (bvec ![1, 0] slices_S3x128_S1x128_1_0 a3)
      (wmat ![1, 0, 0] slices_S3x128x128_S1x128x128_1_0_0 a4) (bvec ![1, 0] slices_S3x128_S1x128_1_0 a5))
    (wmat ![2, 0, 0] slices_S3x128x128_S1x128x128_2_0_0 a2) (bvec ![2, 0] slices_S3x128_S1x128_2_0 a3)
    (wmat ![2, 0, 0] slices_S3x128x128_S1x128x128_2_0_0 a4) (bvec ![2, 0] slices_S3x128_S1x128_2_0 a5)

set_option maxHeartbeats 2000000 in
/-- The run's result term is the three nested rounds of the arguments. -/
theorem res_eq (m : (ℓ : Loc nD τ sig) → Buf (Elt Ideal) ℓ) (c : Dev nD) :
    Cert.ReferenceIdeal.Value.res_main_v87 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v87 result layer aggOf biasN zeroN wmat bvec srcOf dstOf
  rfl

/-- A round at node `i`, feature `j`. -/
theorem layer_apply (s d : IVec S1600000 32) (x : FVec Ideal S100000x128 .f32)
    (w1 : FVec Ideal S128x128 .f32) (b1 : FVec Ideal S128 .f32)
    (w2 : FVec Ideal S128x128 .f32) (b2 : FVec Ideal S128 .f32)
    (i : Fin 100000) (j : Fin 128) :
    layer s d x w1 b1 w2 b2 (ix2 i j)
      = Cert.Gin.mlpRow (fun k => x (ix2 i k) + aggOf s d x (ix2 i k)) w1 (fun k => b1 (ix1 k)) w2 (fun k => b2 (ix1 k)) j := by
  unfold layer
  refine (Cert.Gin.reference_rows dot_S100000x128_S128x128_S100000x128_1_0_0_1_n_n_wf (addf x (aggOf s d x)) w1 w2 (biasN b1) (biasN b2) zeroN
    (fun _ => rfl) i j).trans ?_
  have h1 : ∀ k : Fin 128, biasN b1 (ix2 i k) = b1 (ix1 k) := fun k =>
    Cert.Gin.full_of_vec_apply (N := 100000) b1 _ rfl bcast_S128_S1x128_1 _ ⟨rfl, rfl⟩ bcast_S1x128_S100000x128_0_1 i k
  have h2 : ∀ k : Fin 128, biasN b2 (ix2 i k) = b2 (ix1 k) := fun k =>
    Cert.Gin.full_of_vec_apply (N := 100000) b2 _ rfl bcast_S128_S1x128_1 _ ⟨rfl, rfl⟩ bcast_S1x128_S100000x128_0_1 i k
  simp only [h1, h2]
  rfl

end Cert.ReferenceIdeal.RefValue

end
-- ==== Proof.Bridge.lean ====
/-
  The two programs' results are one function of the arguments.

  Both programs apply the same host operations to form the neighbour sums and to cut a layer's weights and biases out
  of the arguments; the two texts were printed separately, each with its own copies of the shape records and
  side-condition witnesses, so the pieces are equal as functions by unfolding the records.

  A round as the launches compute it (`layerOut`: entry (r, j) is `mlpRow` of row r of `x + agg x`, the bias read off a
  [1, 128] row at (0, k)) and a round as the host computes it (`layer`: entry (i, j) is `mlpRow` of row i of `x + agg x`,
  the bias read off the [128] vector at k) agree entry by entry: the row is the vector recast, and a recast vector at
  (0, k) is the vector at k. Three rounds on each side, so the results agree.
-/
import proofs.«165193_j83038897701199_1_alg».proof.Proof.KernelValue
import proofs.«165193_j83038897701199_1_alg».proof.Proof.RefValue

set_option maxRecDepth 16384

noncomputable section

open Idealize.ShloMosaic Idealize.ShloMosaic.ValueIdx

namespace Cert.Bridge

theorem src_eq : Cert.KernelIdeal.Stretch.srcOf = Cert.ReferenceIdeal.RefValue.srcOf := rfl
theorem dst_eq : Cert.KernelIdeal.Stretch.dstOf = Cert.ReferenceIdeal.RefValue.dstOf := rfl
theorem agg_eq : Cert.KernelIdeal.Stretch.aggOf = Cert.ReferenceIdeal.RefValue.aggOf := rfl
theorem wmat_eq : Cert.KernelIdeal.Stretch.wmat = Cert.ReferenceIdeal.RefValue.wmat := rfl
theorem bvec_eq : Cert.KernelIdeal.Stretch.bvec = Cert.ReferenceIdeal.RefValue.bvec := rfl

/-- A round on the launches' side, its biases the vectors recast as rows, is the round on the host's side. -/
theorem round_eq (s d : (⟨Cert.KernelIdeal.S1600000, .i32⟩ : BufTy).Contents (Elt Ideal))
    (x : (⟨Cert.KernelIdeal.S100000x128, .f32⟩ : BufTy).Contents (Elt Ideal))
    (w1 : (⟨Cert.KernelIdeal.S128x128, .f32⟩ : BufTy).Contents (Elt Ideal)) (b1 : (⟨Cert.KernelIdeal.S128, .f32⟩ : BufTy).Contents (Elt Ideal))
    (w2 : (⟨Cert.KernelIdeal.S128x128, .f32⟩ : BufTy).Contents (Elt Ideal)) (b2 : (⟨Cert.KernelIdeal.S128, .f32⟩ : BufTy).Contents (Elt Ideal))
    (h : Cert.KernelIdeal.S128.ShapeCasts Cert.KernelIdeal.S1x128) :
    Cert.KernelIdeal.KValue.round s d x w1 (shapeCast Cert.KernelIdeal.S1x128 b1 h) w2 (shapeCast Cert.KernelIdeal.S1x128 b2 h)
      = Cert.ReferenceIdeal.RefValue.layer s d x w1 b1 w2 b2 := by
  funext i
  obtain ⟨r, j, rfl⟩ : ∃ (r : Fin 100000) (j : Fin 128), i = ix2 r j := ⟨i 0, i 1, eq_ix2 i⟩
  rw [Cert.ReferenceIdeal.RefValue.layer_apply]
  unfold Cert.KernelIdeal.KValue.round
  rw [Cert.Gin.layerOut_apply, agg_eq]
  simp only [Cert.Gin.row_of_vec_apply]

/-- THE TWO RESULTS, as functions of the six argument arrays, are equal. -/
theorem result_eq (x : (⟨Cert.KernelIdeal.S100000x128, .f32⟩ : BufTy).Contents (Elt Ideal))
    (e : (⟨Cert.KernelIdeal.S2x1600000, .i32⟩ : BufTy).Contents (Elt Ideal))
    (a2 : (⟨Cert.KernelIdeal.S3x128x128, .f32⟩ : BufTy).Contents (Elt Ideal)) (a3 : (⟨Cert.KernelIdeal.S3x128, .f32⟩ : BufTy).Contents (Elt Ideal))
    (a4 : (⟨Cert.KernelIdeal.S3x128x128, .f32⟩ : BufTy).Contents (Elt Ideal)) (a5 : (⟨Cert.KernelIdeal.S3x128, .f32⟩ : BufTy).Contents (Elt Ideal)) :
    Cert.KernelIdeal.KValue.result x e a2 a3 a4 a5 = Cert.ReferenceIdeal.RefValue.result x e a2 a3 a4 a5 := by
  unfold Cert.KernelIdeal.KValue.result Cert.ReferenceIdeal.RefValue.result Cert.KernelIdeal.Stretch.brow
  rw [round_eq, round_eq, round_eq, src_eq, dst_eq, wmat_eq, bvec_eq]

end Cert.Bridge

end
-- ==== Proof.lean ====
/-
  Three rounds of message passing on a graph: the tiled kernel against the plain reference, over the extended reals.

  A round maps the node features `x` ([100000, 128]) to  relu ((x + agg x) · W1 + b1) · W2 + b2,  where `agg x` adds, into
  each node's row, the rows of its in-neighbours (a gather along the edges' sources and a scatter-add into their targets).
  Both programs form `agg x` by the same host operations. The reference then applies the dense part to the whole array
  on the host; the kernel program applies it 5000 rows at a time in a launch of 20 grid points, rounding the matrix
  products' operands to a narrower float format first. On the extended reals that rounding is the identity and a matrix
  product into a zero accumulator is the plain sum, so each output row is the same nested sum on both sides — no law
  of arithmetic is needed to compare them, hence no use of the inputs' finiteness.

  The proof: the kernel program's run ends with its result buffer at the last boundary's contents (`RunValue.run`);
  those contents are three rounds of the arguments (`KValue.value`: each launch leaves `layerOut` of what it finds, the host
  stretches between are read back); the reference's run ends at three rounds of its arguments (`RefValue.res_eq`); the
  two three-round functions are equal (`Bridge.result_eq`).
-/
import proofs.«165193_j83038897701199_1_alg».proof.Defs
import proofs.«165193_j83038897701199_1_alg».proof.Proof.Gen.Kernel
import proofs.«165193_j83038897701199_1_alg».proof.Proof.Gen.Kernel.Frame
import proofs.«165193_j83038897701199_1_alg».proof.Proof.Gen.KernelIdeal
import proofs.«165193_j83038897701199_1_alg».proof.Proof.Gen.KernelIdeal.Frame
import proofs.«165193_j83038897701199_1_alg».proof.Proof.Gen.ReferenceIdeal
import proofs.«165193_j83038897701199_1_alg».proof.Proof.Gen.ReferenceIdeal.Run
import proofs.«165193_j83038897701199_1_alg».proof.Proof.Gen.Pre_finite_inputs
import proofs.«165193_j83038897701199_1_alg».proof.Proof.KernelRun
import proofs.«165193_j83038897701199_1_alg».proof.Proof.KernelValue
import proofs.«165193_j83038897701199_1_alg».proof.Proof.RefValue
import proofs.«165193_j83038897701199_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the three rounds of the arguments in their result buffers. -/
theorem algebraic : Cert.algebraic_KernelIdeal_ReferenceIdeal := by
  intro m ρ m' ρ' _ hagree
  refine ⟨fun c => Cert.KernelIdeal.KValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.value m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.ReferenceIdeal.RefValue.res_eq, h0, h1, h2, h3, h4, h5]
    exact (Cert.Bridge.result_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
